-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x16 : Shape := ⟨2, ![2048, 16]⟩
abbrev S16 : Shape := ⟨1, ![16]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2x4096x2048 .f32) (main_arg1 : FVec F S2048x16 .f32) (main_arg2 : FVec F S16 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2x4096x2048 : Shape := ⟨3, ![2, 4096, 2048]⟩
abbrev S2048x16 : Shape := ⟨2, ![2048, 16]⟩
abbrev S16 : Shape := ⟨1, ![16]⟩
abbrev S8192x2048 : Shape := ⟨2, ![8192, 2048]⟩
abbrev S1x16 : Shape := ⟨2, ![1, 16]⟩
abbrev S8192x16 : Shape := ⟨2, ![8192, 16]⟩
abbrev S1024x2048 : Shape := ⟨2, ![1024, 2048]⟩
abbrev S1024x16 : Shape := ⟨2, ![1024, 16]⟩
abbrev S1024 : Shape := ⟨1, ![1024]⟩
abbrev S1024x1 : Shape := ⟨2, ![1024, 1]⟩
abbrev S2x4096x16 : Shape := ⟨3, ![2, 4096, 16]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x16, .f32⟩
  | .hbm, ⟨2, _⟩ => ⟨S16, .f32⟩
  | .hbm, ⟨3, _⟩ => ⟨S8192x2048, .f32⟩
  | .hbm, ⟨4, _⟩ => ⟨S1x16, .f32⟩
  | .hbm, ⟨5, _⟩ => ⟨S8192x16, .f32⟩
  | .hbm, ⟨6, _⟩ => ⟨S2x4096x16, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S1x16, .f32⟩
  | .local _ .vmem, ⟨4, _⟩ => ⟨S1024x16, .f32⟩
  | .local _ .vmem, ⟨5, _⟩ => ⟨S1024x16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x4096x2048_S8192x2048 : S2x4096x2048.ShapeCasts S8192x2048
  shapeCasts_S16_S1x16 : S16.ShapeCasts S1x16
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x16_S2048x16_0_0 : ∀ a, (![0, 0] : Fin 2 → Nat) a + S2048x16.size a ≤ S2048x16.size a
  h_S2048x16 : 0 < S2048x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  shapeCasts_S8192x16_S2x4096x16 : S8192x16.ShapeCasts S2x4096x16
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)

variable [Facts₀]

def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048x16 : Shape := ⟨2, ![2048, 16]⟩
abbrev S16 : Shape := ⟨1, ![16]⟩
abbrev S2x4096x16 : Shape := ⟨3, ![2, 4096, 16]⟩
abbrev S1x1x16 : Shape := ⟨3, ![1, 1, 16]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x16, .f32⟩
  | .hbm, ⟨2, _⟩ => ⟨S16, .f32⟩
  | .hbm, ⟨3, _⟩ => ⟨S2x4096x16, .f32⟩
  | .hbm, ⟨4, _⟩ => ⟨S1x1x16, .f32⟩
  | .hbm, ⟨5, _⟩ => ⟨S2x4096x16, .f32⟩
  | .hbm, ⟨6, _⟩ => ⟨S2x4096x16, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S2x4096x1, .f32⟩
  | .hbm, ⟨13, _⟩ => ⟨S2x4096x16, .f32⟩
  | .hbm, ⟨14, _⟩ => ⟨S2x4096x16, .f32⟩
  | .hbm, ⟨15, _⟩ => ⟨S2x4096x16, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S2x4096x16, .f32⟩
  | .hbm, ⟨20, _⟩ => ⟨S2x4096x16, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S2x4096x16_0_1_2 : S1x1x16.BroadcastsInDim S2x4096x16 (![0, 1, 2] : Fin 3 → Fin S2x4096x16.rank)
  reducesTo_S2x4096x16_S2x4096_d2 : S2x4096x16.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x16_0_1_2 : S2x4096x1.BroadcastsInDim S2x4096x16 (![0, 1, 2] : Fin 3 → Fin S2x4096x16.rank)
  dot_S2x4096x2048_S2048x16_S2x4096x16_2_0_01_1_n_n_wf : DotDims.WF S2x4096x2048 S2048x16 S2x4096x16 [2] [0] [0, 1] [1] [] []

variable [Facts₀]

def dot_S2x4096x2048_S2048x16_S2x4096x16_2_0_01_1_n_n : DotDims S2x4096x2048 S2048x16 S2x4096x16 where
  lhsContracting := [2]
  rhsContracting := [0]
  lhsNonContracting := [0, 1]
  rhsNonContracting := [1]
  lhsBatch := []
  rhsBatch := []
  wf := dot_S2x4096x2048_S2048x16_S2x4096x16_2_0_01_1_n_n_wf

class Facts : Prop extends Facts₀ where

variable [Facts]
-- ==== Proof.Softmax.lean ====
/-
  The softmax of one row of sixteen logits, on the extended reals.

  Both programs compute, for every token row, the sixteen logits `l e = ∑ k, x k · w k e + b e`, the row's
  maximum `M` (a fold of `max` from the pattern `0xFF800000`), the exponentials `exp (l e - M)` and their sum, and
  return `exp (l e - M) / ∑ e', exp (l e' - M)`. This module states that function once, over a bare row
  `l : Fin 16 → EReal`, so that each program's result can be shown to be it at every index. No law of
  arithmetic is needed beyond one fact about the maximum: taking `max` once more against the fold's own
  starting value changes nothing, since a fold of `max` is never below where it started.
-/
import Idealize.ShloMosaic.PureOps.Ideal
import Idealize.ShloMosaic.PureOps.Ideal.Laws
import Idealize.ShloMosaic.Lib.ValueIdx

noncomputable section

namespace Cert.Gating

open Idealize.ShloMosaic

/-- The maximum of a row of sixteen extended reals, folded from the value of the pattern `0xFF800000`. -/
def rowMax (l : Fin 16 → EReal) : EReal :=
  (Finset.univ : Finset (Fin 16)).fold max (Ideal.ofBits .f32 0xFF800000#32) l

/-- The fold never ends below its starting value, so one more `max` against that value is the identity. -/
theorem max_start_rowMax (l : Fin 16 → EReal) : max (Ideal.ofBits .f32 0xFF800000#32) (rowMax l) = rowMax l :=
  max_eq_right (by unfold rowMax; rw [Finset.le_fold_max]; exact Or.inl le_rfl)

/-- The softmax of a row at position `e`: the exponential of the logit less the row's maximum, over the sum of
    those exponentials along the row. -/
def rowSoftmax (l : Fin 16 → EReal) (e : Fin 16) : EReal :=
  Ideal.div (Ideal.exp (l e - rowMax l)) (∑ e' : Fin 16, Ideal.exp (l e' - rowMax l))

/-- The softmax depends on the row only through its values. -/
theorem rowSoftmax_congr {l l' : Fin 16 → EReal} (h : ∀ e, l e = l' e) (e : Fin 16) : rowSoftmax l e = rowSoftmax l' e := by
  rw [show l = l' from funext h]

/-! ## The gate over the whole token array -/

open Idealize.ShloMosaic.ValueIdx

/-- The sixteen logits of the token at batch `a`, position `b`: the token's 2048 features against each expert's
    column of weights, plus that expert's bias. -/
def logits (X : (⟨3, ![2, 4096, 2048]⟩ : Shape).Idx → EReal) (W : (⟨2, ![2048, 16]⟩ : Shape).Idx → EReal)
    (B : (⟨1, ![16]⟩ : Shape).Idx → EReal) (a : Fin 2) (b : Fin 4096) : Fin 16 → EReal :=
  fun e => ∑ k : Fin 2048, X (ix3 a b k) * W (ix2 k e) + B (ix1 e)

/-- The gating network's result: at `(a, b, e)` the softmax over the experts of token `(a, b)`'s logits, at expert `e`. -/
def gate (X : (⟨3, ![2, 4096, 2048]⟩ : Shape).Idx → EReal) (W : (⟨2, ![2048, 16]⟩ : Shape).Idx → EReal)
    (B : (⟨1, ![16]⟩ : Shape).Idx → EReal) : (⟨3, ![2, 4096, 16]⟩ : Shape).Idx → EReal :=
  fun i => rowSoftmax (logits X W B (i 0) (i 1)) (i 2)

theorem gate_apply (X : (⟨3, ![2, 4096, 2048]⟩ : Shape).Idx → EReal) (W : (⟨2, ![2048, 16]⟩ : Shape).Idx → EReal)
    (B : (⟨1, ![16]⟩ : Shape).Idx → EReal) (a : Fin 2) (b : Fin 4096) (e : Fin 16) :
    gate X W B (ix3 a b e) = rowSoftmax (logits X W B a b) e := rfl

end Cert.Gating

end
-- ==== Proof.RefGate.lean ====
/-
  The reference program computes the gate.

  Read one operation at a time, the reference's result at `(a, b, e)` is: the contraction of token `(a, b)` against
  column `e` of the weights plus the bias (the logits); the maximum of the token's sixteen logits, folded from the
  pattern `0xFF800000` and then taken once more against that same value, which changes nothing; the exponential of
  each logit less that maximum; their sum along the row, from zero; and the quotient. That is `gate`.
-/
import proofs.«169102_g59313498358378_cont_9to1_m_905_2_alg».proof.Proof.Gen.ReferenceIdeal.Read
import proofs.«169102_g59313498358378_cont_9to1_m_905_2_alg».proof.Proof.Softmax
import Idealize.ShloMosaic.PureOps.Reduce

noncomputable section

namespace Cert.Gating.Ref

open Cert.ReferenceIdeal Cert.ReferenceIdeal.Gen Cert.ReferenceIdeal.Read Idealize.ShloMosaic Idealize.ShloMosaic.ValueIdx Cert.Gating

variable (x0 : S2x4096x2048.Idx → EReal) (x1 : S2048x16.Idx → EReal) (x2 : S16.Idx → EReal)

/-- The biased product at `(a, b, e)` is the logit of token `(a, b)` for expert `e`. -/
theorem v3_apply (a : Fin 2) (b : Fin 4096) (e : Fin 16) :
    val_main_v3 (F := Ideal) x0 x1 x2 (ix3 a b e) = logits x0 x1 x2 a b e := by
  have el : ∀ k : Fin 2048, lidx_main_v0 (ix3 a b e) k = ix3 a b k := fun k =>
    funext fun c => Fin.ext (by match c with | ⟨0, _⟩ => rfl | ⟨1, _⟩ => rfl | ⟨2, _⟩ => rfl)
  have er : ∀ k : Fin 2048, ridx_main_v0 (ix3 a b e) k = ix2 k e := fun k =>
    funext fun c => Fin.ext (by match c with | ⟨0, _⟩ => rfl | ⟨1, _⟩ => rfl)
  have eb : idx_main_v1 (idx_main_v2 (ix3 a b e)) = ix1 e :=
    funext fun c => Fin.ext (by match c with | ⟨0, _⟩ => rfl)
  rw [val_main_v3_apply, val_main_v0_apply, val_main_v2_apply, val_main_v1_apply, eb]
  simp only [el, er]
  rfl

/-- The row maximum the reference reduces to, at token `(a, b)`. -/
theorem v4_apply (a : Fin 2) (b : Fin 4096) :
    val_main_v4 (F := Ideal) x0 x1 x2 (ix2 a b) = rowMax (logits x0 x1 x2 a b) := by
  have h : S2x4096x16.Reduces [2] S2x4096 := by decide
  unfold val_main_v4
  rw [Host.reduce_eq_fold_single FloatOps.maximumf _ _ reducesTo_S2x4096x16_S2x4096_d2 h h_S_ (ix2 a b)]
  unfold rowMax
  have ef : (val_main_v3 (F := Ideal) x0 x1 x2 ∘ h.lift (ix2 a b)) = logits x0 x1 x2 a b := funext fun e => by
    show val_main_v3 (F := Ideal) x0 x1 x2 (h.lift (ix2 a b) e) = _
    rw [show h.lift (ix2 a b) e = ix3 a b e from
      funext fun c => Fin.ext (by match c with | ⟨0, _⟩ => rfl | ⟨1, _⟩ => rfl | ⟨2, _⟩ => rfl)]
    exact v3_apply x0 x1 x2 a b e
  rw [ef]
  rfl

/-- Taken once more against the fold's starting value, it is still the row maximum. -/
theorem v6_apply (a : Fin 2) (b : Fin 4096) :
    val_main_v6 (F := Ideal) x0 x1 x2 (ix2 a b) = rowMax (logits x0 x1 x2 a b) := by
  rw [val_main_v6_apply, val_main_v5_apply, v4_apply]
  exact max_start_rowMax _

/-- The exponential of a logit less its row's maximum. -/
theorem v10_apply (a : Fin 2) (b : Fin 4096) (e : Fin 16) :
    val_main_v10 (F := Ideal) x0 x1 x2 (ix3 a b e)
      = Ideal.exp (logits x0 x1 x2 a b e - rowMax (logits x0 x1 x2 a b)) := by
  have em : idx_main_v7 (idx_main_v8 (ix3 a b e)) = ix2 a b :=
    funext fun c => Fin.ext (by match c with | ⟨0, _⟩ => rfl | ⟨1, _⟩ => rfl)
  rw [val_main_v10_apply, val_main_v9_apply, val_main_v8_apply, val_main_v7_apply, em, v6_apply, v3_apply]
  rfl

/-- The sum of a row's exponentials. -/
theorem v11_apply (a : Fin 2) (b : Fin 4096) :
    val_main_v11 (F := Ideal) x0 x1 x2 (ix2 a b)
      = ∑ e' : Fin 16, Ideal.exp (logits x0 x1 x2 a b e' - rowMax (logits x0 x1 x2 a b)) := by
  rw [val_main_v11_apply, val_main_cst_1_apply]
  show Ideal.ofBits .f32 0x00000000#32 + _ = _
  rw [Ideal.ofBits_zero_f32, zero_add]
  refine Finset.sum_congr rfl fun k _ => ?_
  rw [show idx_main_v11 (ix2 a b) k = ix3 a b k from
    funext fun c => Fin.ext (by match c with | ⟨0, _⟩ => rfl | ⟨1, _⟩ => rfl | ⟨2, _⟩ => rfl)]
  exact v10_apply x0 x1 x2 a b k

/-- The reference's result is the gate, index by index. -/
theorem v14_eq : val_main_v14 (F := Ideal) x0 x1 x2 = gate x0 x1 x2 := by
  funext i
  obtain ⟨a, b, e, rfl⟩ : ∃ (a : Fin 2) (b : Fin 4096) (e : Fin 16), i = ix3 a b e := ⟨i 0, i 1, i 2, eq_ix3 i⟩
  have es : idx_main_v12 (idx_main_v13 (ix3 a b e)) = ix2 a b :=
    funext fun c => Fin.ext (by match c with | ⟨0, _⟩ => rfl | ⟨1, _⟩ => rfl)
  rw [val_main_v14_apply, val_main_v13_apply, val_main_v12_apply, es, v11_apply, v10_apply, gate_apply]
  rfl

end Cert.Gating.Ref

end
-- ==== Proof.Payload.lean ====
/-
  What the kernel body stores, read at one element.

  At a grid point the body holds a block of 1024 token rows `x` (1024 × 2048), the whole weight matrix `w`
  (2048 × 16) and the bias as a one-row matrix `b` (1 × 16). It forms the block's logits `x · w + b` (the product
  into a zero accumulator, the bias row repeated down the rows), each row's maximum, the exponentials of the logits
  less their row's maximum, each row's sum of those, and stores the quotient. Read at row `p`, column `q`, that is
  the softmax of row `p`'s logits at `q`: every reduction is along the row, and the two column vectors (maximum and
  sum) are spread back over the sixteen columns unchanged.
-/
import proofs.«169102_g59313498358378_cont_9to1_m_905_2_alg».proof.Proof.Gen.KernelIdeal.Skeleton
import proofs.«169102_g59313498358378_cont_9to1_m_905_2_alg».proof.Proof.Softmax
import Idealize.ShloMosaic.Lib.Pipeline.Value
import Idealize.ShloMosaic.Lib.ValueIdx
import Idealize.ShloMosaic.PureOps.Ideal.Laws

noncomputable section

namespace Cert.Gating.Body

open Cert.KernelIdeal Cert.KernelIdeal.Gen Idealize.ShloMosaic Idealize.ShloMosaic.ValueIdx Cert.Gating

/-! ## The product's operand indices, coordinate by coordinate -/

theorem lhs_row (i : S1024x16.Idx) (k : dot_S1024x2048_S2048x16_S1024x16_1_0_0_1_n_n.contr.Idx) : (dot_S1024x2048_S2048x16_S1024x16_1_0_0_1_n_n.lhsIdx i k 0).val = (i 0).val := by
  unfold DotDims.lhsIdx
  rw [dif_neg (show ¬(0 : Fin S1024x2048.rank) ∈ dot_S1024x2048_S2048x16_S1024x16_1_0_0_1_n_n.lhsBatch by decide), dif_pos (show (0 : Fin S1024x2048.rank) ∈ dot_S1024x2048_S2048x16_S1024x16_1_0_0_1_n_n.lhsNonContracting by decide)]
  rfl
theorem lhs_col (i : S1024x16.Idx) (k : dot_S1024x2048_S2048x16_S1024x16_1_0_0_1_n_n.contr.Idx) : (dot_S1024x2048_S2048x16_S1024x16_1_0_0_1_n_n.lhsIdx i k 1).val = (k ⟨0, by decide⟩).val :=
  dot_S1024x2048_S2048x16_S1024x16_1_0_0_1_n_n.lhsIdx_val_of_single rfl i k
theorem rhs_row (i : S1024x16.Idx) (k : dot_S1024x2048_S2048x16_S1024x16_1_0_0_1_n_n.contr.Idx) : (dot_S1024x2048_S2048x16_S1024x16_1_0_0_1_n_n.rhsIdx i k 0).val = (k ⟨0, by decide⟩).val :=
  dot_S1024x2048_S2048x16_S1024x16_1_0_0_1_n_n.rhsIdx_val_of_single rfl i k
theorem rhs_col (i : S1024x16.Idx) (k : dot_S1024x2048_S2048x16_S1024x16_1_0_0_1_n_n.contr.Idx) : (dot_S1024x2048_S2048x16_S1024x16_1_0_0_1_n_n.rhsIdx i k 1).val = (i 1).val := by
  unfold DotDims.rhsIdx
  rw [dif_neg (show ¬(1 : Fin S2048x16.rank) ∈ dot_S1024x2048_S2048x16_S1024x16_1_0_0_1_n_n.rhsBatch by decide), dif_pos (show (1 : Fin S2048x16.rank) ∈ dot_S1024x2048_S2048x16_S1024x16_1_0_0_1_n_n.rhsNonContracting by decide)]
  rfl

/-! ## The layout steps of the body, read at an index -/

/-- The product of a block of rows with the weights, into zero, at `(p, e)`: row `p` against column `e`. -/
theorem product_apply (x : FVec Ideal S1024x2048 .f32) (w : FVec Ideal S2048x16 .f32) (p : Fin 1024) (e : Fin 16) :
    matmul dot_S1024x2048_S2048x16_S1024x16_1_0_0_1_n_n none x w (constant (F := Ideal) S1024x16 .f32 0x00000000#32) (ix2 p e)
      = ∑ k : Fin 2048, x (ix2 p k) * w (ix2 k e) := by
  simp only [matmul]
  rw [Ideal.matmul_constant_zero_apply, ← Equiv.sum_comp (contrEquiv1 dot_S1024x2048_S2048x16_S1024x16_1_0_0_1_n_n 2048 rfl rfl).symm]
  refine Finset.sum_congr rfl fun k _ => ?_
  have hk := contrEquiv1_symm_val dot_S1024x2048_S2048x16_S1024x16_1_0_0_1_n_n 2048 rfl rfl k
  have el : dot_S1024x2048_S2048x16_S1024x16_1_0_0_1_n_n.lhsIdx (ix2 p e) ((contrEquiv1 dot_S1024x2048_S2048x16_S1024x16_1_0_0_1_n_n 2048 rfl rfl).symm k) = ix2 p k := funext fun a => Fin.ext (by
    match a with
    | ⟨0, _⟩ => exact lhs_row _ _
    | ⟨1, _⟩ => exact (lhs_col _ _).trans hk)
  have er : dot_S1024x2048_S2048x16_S1024x16_1_0_0_1_n_n.rhsIdx (ix2 p e) ((contrEquiv1 dot_S1024x2048_S2048x16_S1024x16_1_0_0_1_n_n 2048 rfl rfl).symm k) = ix2 k e := funext fun a => Fin.ext (by
    match a with
    | ⟨0, _⟩ => exact (rhs_row _ _).trans hk
    | ⟨1, _⟩ => exact rhs_col _ _)
  rw [el, er]

/-- The one bias row repeated down the 1024 rows, at `(p, e)`: the bias of column `e`. -/
theorem biasRows_apply (b : FVec Ideal S1x16 .f32) (p : Fin 1024) (e : Fin 16) :
    broadcastTo S1024x16 b broadcasts_S1x16_S1024x16 (ix2 p e) = b (ix2 (0 : Fin 1) e) :=
  broadcastTo_apply b broadcasts_S1x16_S1024x16 (ix2 p e) (ix2 (0 : Fin 1) e) (fun a => match a with
    | ⟨0, _⟩ => by show (0 : Nat) = if (1 : Nat) = 1 then 0 else p.val; rw [if_pos rfl]
    | ⟨1, _⟩ => by show e.val = if (16 : Nat) = 1 then 0 else e.val; rw [if_neg (by decide)])

/-- A vector of one value per row, made a column and spread over the sixteen columns, at `(p, q)`: row `p`'s value. -/
theorem spreadRows_apply (r : FVec Ideal S1024 .f32) (p : Fin 1024) (q : Fin 16) :
    broadcastTo S1024x16 (shapeCast S1024x1 r shapeCasts_S1024_S1024x1) broadcasts_S1024x1_S1024x16 (ix2 p q) = r (ix1 p) := by
  refine (broadcastTo_apply _ broadcasts_S1024x1_S1024x16 (ix2 p q) (ix2 p (0 : Fin 1)) (fun a => match a with
    | ⟨0, _⟩ => by show p.val = if (1024 : Nat) = 1 then 0 else p.val; rw [if_neg (by decide)]
    | ⟨1, _⟩ => by show (0 : Nat) = if (1 : Nat) = 1 then 0 else q.val; rw [if_pos rfl])).trans ?_
  refine shapeCast_apply r shapeCasts_S1024_S1024x1 (ix2 p (0 : Fin 1)) (ix1 p) ?_
  rw [Shape.rowMajor_val_one, Shape.rowMajor_val_two]
  show p.val = p.val * 1 + 0
  omega

/-- A maximum along the rows of a 1024 × 16 block, at row `p`: the row maximum of that row's sixteen entries. -/
theorem maxAlongRow (L : FVec Ideal S1024x16 .f32) (p : Fin 1024) (l : Fin 16 → EReal) (hl : ∀ e, L (ix2 p e) = l e) :
    multiReduction (F := Ideal) .maximumf [1] S1024 L 0xFF800000#32 reduces_S1024x16_S1024 (.inl rfl) rfl (ix1 p) = rowMax l := by
  refine (Ideal.multiReduction_maximumf_single L 0xFF800000#32 reduces_S1024x16_S1024 (.inl rfl) rfl (ix1 p)).trans ?_
  unfold rowMax
  have ef : (L ∘ reduces_S1024x16_S1024.lift (ix1 p)) = l := funext fun e => by
    show L (reduces_S1024x16_S1024.lift (ix1 p) e) = _
    rw [show reduces_S1024x16_S1024.lift (ix1 p) e = ix2 p e from
      funext fun c => Fin.ext (by match c with | ⟨0, _⟩ => rfl | ⟨1, _⟩ => rfl)]
    exact hl e
  rw [ef]
  rfl

/-- A sum along the rows of a 1024 × 16 block, from zero, at row `p`: the sum of that row's sixteen entries. -/
theorem sumAlongRow (E : FVec Ideal S1024x16 .f32) (p : Fin 1024) (f : Fin 16 → EReal) (hf : ∀ e, E (ix2 p e) = f e) :
    multiReduction (F := Ideal) .add [1] S1024 E 0x00000000#32 reduces_S1024x16_S1024 (.inl rfl) rfl (ix1 p) = ∑ e : Fin 16, f e := by
  refine (Ideal.multiReduction_add_single E 0x00000000#32 reduces_S1024x16_S1024 (.inl rfl) rfl (ix1 p)).trans ?_
  refine Finset.sum_congr rfl fun e _ => ?_
  rw [show reduces_S1024x16_S1024.lift (ix1 p) e = ix2 p e from
    funext fun c => Fin.ext (by match c with | ⟨0, _⟩ => rfl | ⟨1, _⟩ => rfl)]
  exact hf e

/-! ## The body's value, step by step -/

variable (v0 : FVec Ideal S1024x2048 .f32) (v2 : FVec Ideal S2048x16 .f32) (v4 : FVec Ideal S1x16 .f32)

/-- Row `p`'s sixteen logits, from the block's rows, the weights and the bias row. -/
def rowLogits (p : Fin 1024) : Fin 16 → EReal := fun e => ∑ k : Fin 2048, v0 (ix2 p k) * v2 (ix2 k e) + v4 (ix2 (0 : Fin 1) e)

/-- The block's logits as the body forms them. -/
def blockLogits : FVec Ideal S1024x16 .f32 :=
  addf (matmul dot_S1024x2048_S2048x16_S1024x16_1_0_0_1_n_n none (shapeCast S1024x2048 v0 shapeCasts_S1024x2048_S1024x2048) v2 (constant (F := Ideal) S1024x16 .f32 0x00000000#32))
    (broadcastTo S1024x16 (shapeCast S1x16 v4 shapeCasts_S1x16_S1x16) broadcasts_S1x16_S1024x16)

/-- Each row's maximum. -/
def blockMax : FVec Ideal S1024 .f32 :=
  multiReduction (F := Ideal) .maximumf [1] S1024 (blockLogits v0 v2 v4) 0xFF800000#32 reduces_S1024x16_S1024 (.inl rfl) rfl

/-- The exponentials of the logits less their row's maximum. -/
def blockExp : FVec Ideal S1024x16 .f32 :=
  exp (subf (blockLogits v0 v2 v4)
    (broadcastTo S1024x16 (shapeCast S1024x1 (blockMax v0 v2 v4) shapeCasts_S1024_S1024x1) broadcasts_S1024x1_S1024x16))

/-- Each row's sum of exponentials. -/
def blockSum : FVec Ideal S1024 .f32 :=
  multiReduction (F := Ideal) .add [1] S1024 (blockExp v0 v2 v4) 0x00000000#32 reduces_S1024x16_S1024 (.inl rfl) rfl

/-- The stored value is the quotient of those two. -/
theorem pay_eq : k0_pay1 (F := Ideal) v0 v2 v4
    = divf (blockExp v0 v2 v4)
        (broadcastTo S1024x16 (shapeCast S1024x1 (blockSum v0 v2 v4) shapeCasts_S1024_S1024x1) broadcasts_S1024x1_S1024x16) := rfl

theorem blockLogits_apply (p : Fin 1024) (e : Fin 16) : blockLogits v0 v2 v4 (ix2 p e) = rowLogits v0 v2 v4 p e := by
  unfold blockLogits rowLogits
  rw [shapeCast_self, shapeCast_self]
  show matmul dot_S1024x2048_S2048x16_S1024x16_1_0_0_1_n_n none v0 v2 (constant (F := Ideal) S1024x16 .f32 0x00000000#32) (ix2 p e)
    + broadcastTo S1024x16 v4 broadcasts_S1x16_S1024x16 (ix2 p e) = _
  rw [product_apply, biasRows_apply]

theorem blockMax_apply (p : Fin 1024) : blockMax v0 v2 v4 (ix1 p) = rowMax (rowLogits v0 v2 v4 p) :=
  maxAlongRow _ p _ (blockLogits_apply v0 v2 v4 p)

theorem blockExp_apply (p : Fin 1024) (e : Fin 16) :
    blockExp v0 v2 v4 (ix2 p e) = Ideal.exp (rowLogits v0 v2 v4 p e - rowMax (rowLogits v0 v2 v4 p)) := by
  unfold blockExp
  show Ideal.exp (blockLogits v0 v2 v4 (ix2 p e)
    - broadcastTo S1024x16 (shapeCast S1024x1 (blockMax v0 v2 v4) shapeCasts_S1024_S1024x1) broadcasts_S1024x1_S1024x16 (ix2 p e)) = _
  rw [spreadRows_apply, blockLogits_apply, blockMax_apply]

theorem blockSum_apply (p : Fin 1024) :
    blockSum v0 v2 v4 (ix1 p) = ∑ e : Fin 16, Ideal.exp (rowLogits v0 v2 v4 p e - rowMax (rowLogits v0 v2 v4 p)) :=
  sumAlongRow _ p _ (blockExp_apply v0 v2 v4 p)

/-- THE BODY'S VALUE at row `p`, column `q`: the softmax of row `p`'s logits at `q`. -/
theorem pay_apply (p : Fin 1024) (q : Fin 16) :
    k0_pay1 (F := Ideal) v0 v2 v4 (ix2 p q) = rowSoftmax (rowLogits v0 v2 v4 p) q := by
  rw [pay_eq]
  show Ideal.div (blockExp v0 v2 v4 (ix2 p q))
    (broadcastTo S1024x16 (shapeCast S1024x1 (blockSum v0 v2 v4) shapeCasts_S1024_S1024x1) broadcasts_S1024x1_S1024x16 (ix2 p q)) = _
  rw [spreadRows_apply, blockExp_apply, blockSum_apply]
  rfl

end Cert.Gating.Body

end
-- ==== Proof.Rows.lean ====
/-
  The gate over the tokens as 8192 rows, and how a block and the batched array sit in it.

  The kernel sees the tokens as one matrix of 8192 rows (batch `a`, position `b` at row `4096·a + b`) and the bias as a
  one-row matrix, and works on blocks of 1024 consecutive rows. `gateRows` is the gate over that matrix. Two facts
  place the kernel's pieces in it: a block whose rows are rows `r₀ … r₀+1023` of the matrix gives, through the body,
  those rows of `gateRows`; and `gateRows` at row `4096·a + b` is `gate` at token `(a, b)`, because both are the same
  softmax of the same sixteen logits.
-/
import proofs.«169102_g59313498358378_cont_9to1_m_905_2_alg».proof.Proof.Payload

noncomputable section

namespace Cert.Gating

open Idealize.ShloMosaic Idealize.ShloMosaic.ValueIdx

/-- The gate over the token matrix: at row `r`, column `e`, the softmax of row `r`'s sixteen logits at `e`. -/
def gateRows (X : (⟨2, ![8192, 2048]⟩ : Shape).Idx → EReal) (W : (⟨2, ![2048, 16]⟩ : Shape).Idx → EReal)
    (B : (⟨2, ![1, 16]⟩ : Shape).Idx → EReal) : (⟨2, ![8192, 16]⟩ : Shape).Idx → EReal :=
  fun j => rowSoftmax (fun e => ∑ k : Fin 2048, X (ix2 (j 0) k) * W (ix2 k e) + B (ix2 (0 : Fin 1) e)) (j 1)

theorem gateRows_apply (X : (⟨2, ![8192, 2048]⟩ : Shape).Idx → EReal) (W : (⟨2, ![2048, 16]⟩ : Shape).Idx → EReal)
    (B : (⟨2, ![1, 16]⟩ : Shape).Idx → EReal) (r : Fin 8192) (e : Fin 16) :
    gateRows X W B (ix2 r e) = rowSoftmax (fun e' => ∑ k : Fin 2048, X (ix2 r k) * W (ix2 k e') + B (ix2 (0 : Fin 1) e')) e := rfl

/-- A BLOCK OF ROWS THROUGH THE BODY. If the block `x0` holds rows `r₀ + p` of the matrix `X`, and `x1`, `x2` are the
    weights and the bias row, then what the body stores at block element `j` is `gateRows` at the matrix element `i`
    that sits `r₀` rows further down in the same column. -/
theorem block_eq (x0 : FVec Ideal Cert.KernelIdeal.S1024x2048 .f32) (x1 : FVec Ideal Cert.KernelIdeal.S2048x16 .f32)
    (x2 : FVec Ideal Cert.KernelIdeal.S1x16 .f32)
    (X : (⟨2, ![8192, 2048]⟩ : Shape).Idx → EReal) (W : (⟨2, ![2048, 16]⟩ : Shape).Idx → EReal)
    (B : (⟨2, ![1, 16]⟩ : Shape).Idx → EReal) (r₀ : Nat)
    (h0 : ∀ (p : Fin 1024) (k : Fin 2048) (a : Fin 8192), a.val = r₀ + p.val → x0 (ix2 p k) = X (ix2 a k))
    (h1 : ∀ (k : Fin 2048) (e : Fin 16), x1 (ix2 k e) = W (ix2 k e))
    (h2 : ∀ e : Fin 16, x2 (ix2 (0 : Fin 1) e) = B (ix2 (0 : Fin 1) e))
    (j : Cert.KernelIdeal.S1024x16.Idx) (i : (⟨2, ![8192, 16]⟩ : Shape).Idx)
    (hi0 : (i 0).val = r₀ + (j 0).val) (hi1 : (i 1).val = (j 1).val) :
    Cert.KernelIdeal.Gen.k0_pay1 (F := Ideal) x0 x1 x2 j = gateRows X W B i := by
  obtain ⟨p, q, rfl⟩ : ∃ (p : Fin 1024) (q : Fin 16), j = ix2 p q := ⟨j 0, j 1, eq_ix2 j⟩
  obtain ⟨a, b, rfl⟩ : ∃ (a : Fin 8192) (b : Fin 16), i = ix2 a b := ⟨i 0, i 1, eq_ix2 i⟩
  have hb : b = q := Fin.ext hi1
  subst hb
  rw [Body.pay_apply, gateRows_apply]
  refine rowSoftmax_congr (fun e => ?_) b
  unfold Body.rowLogits
  rw [h2 e]
  refine congrArg (· + B (ix2 (0 : Fin 1) e)) (Finset.sum_congr rfl fun k _ => ?_)
  rw [h0 p k a hi0, h1]

/-- ROWS AND TOKENS. If the matrix `X2` holds token `(a, b)` at row `4096·a + b` and the bias row `B2` holds the bias,
    then `gateRows` at that row is `gate` at that token. -/
theorem gateRows_eq_gate (X2 : (⟨2, ![8192, 2048]⟩ : Shape).Idx → EReal) (X : (⟨3, ![2, 4096, 2048]⟩ : Shape).Idx → EReal)
    (W : (⟨2, ![2048, 16]⟩ : Shape).Idx → EReal) (B2 : (⟨2, ![1, 16]⟩ : Shape).Idx → EReal) (B : (⟨1, ![16]⟩ : Shape).Idx → EReal)
    (hX : ∀ (a : Fin 2) (b : Fin 4096) (k : Fin 2048) (r : Fin 8192), r.val = a.val * 4096 + b.val → X2 (ix2 r k) = X (ix3 a b k))
    (hB : ∀ e : Fin 16, B2 (ix2 (0 : Fin 1) e) = B (ix1 e))
    (a : Fin 2) (b : Fin 4096) (e : Fin 16) (r : Fin 8192) (hr : r.val = a.val * 4096 + b.val) :
    gateRows X2 W B2 (ix2 r e) = gate X W B (ix3 a b e) := by
  rw [gateRows_apply, gate_apply]
  refine rowSoftmax_congr (fun e' => ?_) e
  unfold logits
  rw [hB e']
  refine congrArg (· + B (ix1 e')) (Finset.sum_congr rfl fun k _ => ?_)
  rw [hX a b k r hr]

end Cert.Gating

end
-- ==== Proof.Blocks.lean ====
/-
  From the blocks the grid writes to the whole output matrix.

  The grid has eight points; point `t` works on rows `1024·t … 1024·t + 1023` of the token matrix with the whole weight
  matrix and the bias row, and writes back rows `1024·t … 1024·t + 1023` of the 8192 × 16 output. What it writes is the
  body's value of its three input blocks, which by the block lemma is that stretch of rows of `gateRows` of the three
  arrays as the pipeline finds them. The eight stretches cover every row, so after the run the output matrix is
  `gateRows` of those arrays.
-/
import proofs.«169102_g59313498358378_cont_9to1_m_905_2_alg».proof.Proof.Gen.KernelIdeal.Frame
import proofs.«169102_g59313498358378_cont_9to1_m_905_2_alg».proof.Proof.Rows
import Idealize.ShloMosaic.Lib.Pipeline.Value

set_option maxRecDepth 16384

noncomputable section

namespace Cert.Gating.Blocks

open Cert.KernelIdeal Cert.KernelIdeal.Gen Idealize.ShloMosaic Idealize.ShloMosaic.TcCoe Idealize.ShloMosaic.ValueIdx
open Idealize.SL.Sem Cert.Gating
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

/-- Where each window's block sits at point `t`: the token rows move with the output rows, everything else stays at the
    origin, and the output's row-block index runs over `0 … 7`. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every stretch of 1024 output rows is some point's. -/
theorem block_onto : ∀ q : Fin 8, ∃ t : Fin cfg0.N, win0_3.index t = ![q.val, 0] :=
  (by decide +kernel : ∀ q : Fin 8, ∃ t : Fin grid0.N, win0_3.index t = ![q.val, 0])

/-- The token block at point `t` holds rows `1024·(the output's block index) + p` of the token matrix. -/
theorem tokens_block (c : Dev nD) (t : Fin cfg0.N) (p : Fin 1024) (k : Fin 2048) (a : Fin 8192)
    (ha : a.val = win0_3.index t (0 : Fin 2) * 1024 + p.val) :
    iblk m c 0 t (ix2 p k) = V m c main_v0 (ix2 a k) := by
  obtain ⟨e0, e1, -, -, -, -, -, -⟩ := block_indices t
  show V m c main_v0 (((cfg0.win 0).blk t).view.emb (ix2 p k)) = V m c main_v0 (ix2 a k)
  refine congrArg (V m c main_v0) (funext fun d => Fin.ext ?_)
  match d with
  | ⟨0, _⟩ => show win0_0.index t (0 : Fin 2) * 1024 + 1 * p.val = a.val; omega
  | ⟨1, _⟩ => show win0_0.index t (1 : Fin 2) * 2048 + 1 * k.val = k.val; omega

/-- The weight block at every point is the whole weight matrix. -/
theorem weights_block (c : Dev nD) (t : Fin cfg0.N) (k : Fin 2048) (e : Fin 16) :
    iblk m c 1 t (ix2 k e) = V m c main_arg1 (ix2 k e) := by
  obtain ⟨-, -, e2, e3, -, -, -, -⟩ := block_indices t
  show V m c main_arg1 (((cfg0.win 1).blk t).view.emb (ix2 k e)) = V m c main_arg1 (ix2 k e)
  refine congrArg (V m c main_arg1) (funext fun d => Fin.ext ?_)
  match d with
  | ⟨0, _⟩ => show win0_1.index t (0 : Fin 2) * 2048 + 1 * k.val = k.val; omega
  | ⟨1, _⟩ => show win0_1.index t (1 : Fin 2) * 16 + 1 * e.val = e.val; omega

/-- The bias block at every point is the whole bias row. -/
theorem bias_block (c : Dev nD) (t : Fin cfg0.N) (e : Fin 16) :
    iblk m c 2 t (ix2 (0 : Fin 1) e) = V m c main_v1 (ix2 (0 : Fin 1) e) := by
  obtain ⟨-, -, -, -, e4, e5, -, -⟩ := block_indices t
  show V m c main_v1 (((cfg0.win 2).blk t).view.emb (ix2 (0 : Fin 1) e)) = V m c main_v1 (ix2 (0 : Fin 1) e)
  refine congrArg (V m c main_v1) (funext fun d => Fin.ext ?_)
  match d with
  | ⟨0, _⟩ => show win0_2.index t (0 : Fin 2) * 1 + 1 * 0 = 0; omega
  | ⟨1, _⟩ => show win0_2.index t (1 : Fin 2) * 16 + 1 * e.val = e.val; omega

/-- WHAT POINT `t` WRITES BACK is its stretch of rows of `gateRows` of the arrays as the pipeline finds them. -/
theorem flushed_eq (c : Dev nD) (t : Fin cfg0.N) :
    (dats m 0 c).flushed 3 t
      = ((cfg0.win 3).blk t).view.read (Elt Ideal) (gateRows (V m c main_v0) (V m c main_arg1) (V m c main_v1)) := by
  show (cfg0.win 3).cut (grid0.coords t) ((dats m 0 c).after 3 t) = _
  rw [after0_3]
  unfold out0_3
  rw [View.canon_unit_zero offsets_zero]
  simp only [View.ld_unit_zero (S := S1024x2048) offsets_zero, View.ld_unit_zero (S := S2048x16) offsets_zero,
    View.ld_unit_zero (S := S1x16) offsets_zero]
  obtain ⟨-, -, -, -, -, -, e6, -⟩ := block_indices t
  funext j
  refine block_eq (iblk m c 0 t) (iblk m c 1 t) (iblk m c 2 t) (V m c main_v0) (V m c main_arg1) (V m c main_v1)
    (win0_3.index t (0 : Fin 2) * 1024) (fun p k a ha => tokens_block m c t p k a ha) (fun k e => weights_block m c t k e)
    (fun e => bias_block m c t e) j (((cfg0.win 3).blk t).view.emb j) ?_ ?_
  · show win0_3.index t (0 : Fin 2) * 1024 + 1 * (j 0).val = win0_3.index t (0 : Fin 2) * 1024 + (j 0).val
    omega
  · show win0_3.index t (1 : Fin 2) * 16 + 1 * (j 1).val = (j 1).val
    omega

/-- A row and column of the output matrix lie in point `t`'s block iff each lies in the block's range on its axis. -/
theorem mem_blk (t : Fin cfg0.N) (i : S8192x16.Idx) :
    i ∈ ((cfg0.win 3).blk t).view.set ↔ ∀ a : Fin 2, win0_3.index t a * S1024x16.size a ≤ (i a).val ∧ (i a).val < win0_3.index t a * S1024x16.size a + S1024x16.size a := by
  show i ∈ ((View.whole main_v2).slice (win0_3.rect t)).set ↔ _
  rw [View.set_slice_whole, Rect.mem_set_unit]
  exact Iff.rfl

/-- Every element of the output matrix is in the block of the point that owns its row's stretch. -/
theorem covered (i : S8192x16.Idx) : ∃ t : Fin cfg0.N, (cfg0.win 3).flush t = true ∧ i ∈ ((cfg0.win 3).blk t).view.set := by
  have hi0 : (i 0).val < 8192 := (i 0).isLt
  have hi1 : (i 1).val < 16 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 16 ≤ (i 1).val ∧ (i 1).val < win0_3.index t (1 : Fin 2) * 16 + 16; omega

/-- THE OUTPUT MATRIX after the run is `gateRows` of the arrays as the pipeline finds them. -/
theorem final (c : Dev nD) :
    (dats m 0 c).arrAt 3 cfg0.N = gateRows (V m c main_v0) (V m c main_arg1) (V m c main_v1) :=
  (dats m 0 c).arrAt_eq_of_cover 3 _ (fun t _ => flushed_eq m c t) (covered)

end Cert.Gating.Blocks

end
-- ==== Proof.HostEnds.lean ====
/-
  The regroupings around the pipeline.

  Before the pipeline the program regroups the token array (2 × 4096 × 2048) into the token matrix (8192 × 2048) and
  the bias (16) into a one-row matrix (1 × 16); after it, the output matrix (8192 × 16) into the result (2 × 4096 × 16).
  A regrouping keeps the row-major order of the elements, so token `(a, b)` is row `4096·a + b` on the way in and on
  the way out, and the bias of expert `e` is the row's entry `e`. Together with the blocks' result this gives the
  program's result: the gate of the three argument arrays.
-/
import proofs.«169102_g59313498358378_cont_9to1_m_905_2_alg».proof.Proof.Blocks
import Idealize.ShloMosaic.Lib.StableHlo.Run

set_option maxRecDepth 16384

noncomputable section

namespace Cert.Gating.HostEnds

open Cert.KernelIdeal Cert.KernelIdeal.Gen Idealize.ShloMosaic Idealize.ShloMosaic.TcCoe Idealize.ShloMosaic.ValueIdx
open Idealize.SL.Sem Cert.Gating Idealize.ShloMosaic.StableHlo

variable (m : (ℓ : Loc nD τ sig) → Buf (Elt Ideal) ℓ)

/-- The token matrix the pipeline finds is the token array regrouped. -/
theorem tokens_eq (c : Dev nD) :
    (V m c main_v0 : S8192x2048.Idx → EReal)
      = shapeCast S8192x2048 (m ((c : Thread nD τ).loc main_arg0)) shapeCasts_S2x4096x2048_S8192x2048 := by
  show StableHlo.after hostOps0 (fun b => m (c, b)) (Proc.devRef .tc main_v0) = _
  after_results
  rfl

/-- The bias row the pipeline finds is the bias regrouped. -/
theorem bias_eq (c : Dev nD) :
    (V m c main_v1 : S1x16.Idx → EReal) = shapeCast S1x16 (m ((c : Thread nD τ).loc main_arg2)) shapeCasts_S16_S1x16 := by
  show StableHlo.after hostOps0 (fun b => m (c, b)) (Proc.devRef .tc main_v1) = _
  after_results
  rfl

/-- Row `4096·a + b` of the token matrix is token `(a, b)`. -/
theorem tokens_apply (c : Dev nD) (a : Fin 2) (b : Fin 4096) (k : Fin 2048) (r : Fin 8192) (hr : r.val = a.val * 4096 + b.val) :
    V m c main_v0 (ix2 r k) = m ((c : Thread nD τ).loc main_arg0) (ix3 a b k) := by
  refine (congrFun (tokens_eq m c) (ix2 r k)).trans ?_
  refine shapeCast_apply _ shapeCasts_S2x4096x2048_S8192x2048 (ix2 r k) (ix3 a b k) ?_
  rw [Shape.rowMajor_val_three, Shape.rowMajor_val_two]
  show (a.val * 4096 + b.val) * 2048 + k.val = r.val * 2048 + k.val
  rw [hr]

/-- Entry `e` of the bias row is the bias of expert `e`. -/
theorem bias_apply (c : Dev nD) (e : Fin 16) :
    V m c main_v1 (ix2 (0 : Fin 1) e) = m ((c : Thread nD τ).loc main_arg2) (ix1 e) := by
  refine (congrFun (bias_eq m c) (ix2 (0 : Fin 1) e)).trans ?_
  refine shapeCast_apply _ shapeCasts_S16_S1x16 (ix2 (0 : Fin 1) e) (ix1 e) ?_
  rw [Shape.rowMajor_val_one, Shape.rowMajor_val_two]
  show e.val = 0 * 16 + e.val
  omega

/-- The program's result is the output matrix the pipeline leaves, regrouped. -/
theorem tail_eq (c : Dev nD) :
    Pipeline.afterTail₀ cfgs (dats m) 0 (V0 m) [hostOps1] c main_v3
      = shapeCast S2x4096x16 ((dats m 0 c).arrAt 3 cfg0.N) shapeCasts_S8192x16_S2x4096x16 := by
  unfold Pipeline.afterTail₀
  show StableHlo.after hostOps1 _ (Proc.devRef .tc main_v3) = _
  after_results
  exact congrArg (fun A => shapeCast S2x4096x16 A shapeCasts_S8192x16_S2x4096x16)
    (Pipeline.withArrays_arr spec0 launch0.win.arr_inj c (V0 m c) (fun w => (dats m 0 c).arrAt w cfg0.N) 3)

/-- Token `(a, b)`'s row of the result is row `4096·a + b` of the output matrix. -/
theorem regroup_apply (A : S8192x16.Idx → EReal) (a : Fin 2) (b : Fin 4096) (e : Fin 16) (r : Fin 8192)
    (hr : r.val = a.val * 4096 + b.val) :
    shapeCast S2x4096x16 A shapeCasts_S8192x16_S2x4096x16 (ix3 a b e) = A (ix2 r e) := by
  refine shapeCast_apply A shapeCasts_S8192x16_S2x4096x16 (ix3 a b e) (ix2 r e) ?_
  rw [Shape.rowMajor_val_three, Shape.rowMajor_val_two]
  show r.val * 16 + e.val = (a.val * 4096 + b.val) * 16 + e.val
  rw [hr]

/-- THE PROGRAM'S RESULT is the gate of the three argument arrays. -/
theorem result_eq (c : Dev nD) :
    (Pipeline.afterTail₀ cfgs (dats m) 0 (V0 m) [hostOps1] c main_v3 : S2x4096x16.Idx → EReal)
      = gate (m ((c : Thread nD τ).loc main_arg0)) (m ((c : Thread nD τ).loc main_arg1)) (m ((c : Thread nD τ).loc main_arg2)) := by
  rw [tail_eq, Blocks.final, V_main_arg1]
  funext i
  obtain ⟨a, b, e, rfl⟩ : ∃ (a : Fin 2) (b : Fin 4096) (e : Fin 16), i = ix3 a b e := ⟨i 0, i 1, i 2, eq_ix3 i⟩
  have hlt : a.val * 4096 + b.val < 8192 := by have := a.isLt; have := b.isLt; omega
  refine (regroup_apply _ a b e ⟨a.val * 4096 + b.val, hlt⟩ rfl).trans ?_
  exact gateRows_eq_gate _ _ _ _ _ (fun a b k r hr => tokens_apply m c a b k r hr) (fun e => bias_apply m c e) a b e _ rfl

end Cert.Gating.HostEnds

end
-- ==== Proof.lean ====
/-
  The certificate: a gating network `softmax (x · W + b)` over the experts, as a blocked kernel and as plain array code.

  Both programs, read on the extended reals, compute for every token the sixteen logits (the token's features against
  each expert's weights, plus the expert's bias), the row's maximum, the exponentials of the logits less that maximum,
  and each exponential over the row's sum of exponentials. The kernel regroups the tokens into 8192 rows, works on
  eight blocks of 1024 rows and regroups the result; the reference works on the batched array directly and takes the
  row maximum once more against the value its fold started from, which changes nothing. So the two results are one
  function, `Cert.Gating.gate`, of the three argument arrays — index by index, with no appeal to finiteness: no
  rearrangement of a sum or product is involved, only where each element sits.

  The three frames are the generated ones (the reference's is its generated run with the result dropped); the ideal pass
  rewrote nothing, so `preserves` is trivial; `algebraic` puts the kernel's run (the generated frame run, whose post
  names the result) and the reference's generated run side by side at `gate`.
-/
import proofs.«169102_g59313498358378_cont_9to1_m_905_2_alg».proof.Defs
import proofs.«169102_g59313498358378_cont_9to1_m_905_2_alg».proof.Proof.Gen.Kernel
import proofs.«169102_g59313498358378_cont_9to1_m_905_2_alg».proof.Proof.Gen.Kernel.Skeleton
import proofs.«169102_g59313498358378_cont_9to1_m_905_2_alg».proof.Proof.Gen.Kernel.Launch
import proofs.«169102_g59313498358378_cont_9to1_m_905_2_alg».proof.Proof.Gen.Kernel.Points
import proofs.«169102_g59313498358378_cont_9to1_m_905_2_alg».proof.Proof.Gen.Kernel.Frame
import proofs.«169102_g59313498358378_cont_9to1_m_905_2_alg».proof.Proof.Gen.KernelIdeal
import proofs.«169102_g59313498358378_cont_9to1_m_905_2_alg».proof.Proof.Gen.KernelIdeal.Skeleton
import proofs.«169102_g59313498358378_cont_9to1_m_905_2_alg».proof.Proof.Gen.KernelIdeal.Launch
import proofs.«169102_g59313498358378_cont_9to1_m_905_2_alg».proof.Proof.Gen.KernelIdeal.Points
import proofs.«169102_g59313498358378_cont_9to1_m_905_2_alg».proof.Proof.Gen.KernelIdeal.Frame
import proofs.«169102_g59313498358378_cont_9to1_m_905_2_alg».proof.Proof.Gen.ReferenceIdeal
import proofs.«169102_g59313498358378_cont_9to1_m_905_2_alg».proof.Proof.Gen.Pre_finite_inputs
import proofs.«169102_g59313498358378_cont_9to1_m_905_2_alg».proof.Proof.Gen.ReferenceIdeal.Run
import proofs.«169102_g59313498358378_cont_9to1_m_905_2_alg».proof.Proof.Gen.ReferenceIdeal.Read
import proofs.«169102_g59313498358378_cont_9to1_m_905_2_alg».proof.Proof.RefGate
import proofs.«169102_g59313498358378_cont_9to1_m_905_2_alg».proof.Proof.HostEnds
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

section KernelRun
open Cert.KernelIdeal Cert.KernelIdeal.Gen

/-- The kernel's program runs, and ends with its result at the gate of its argument arrays and the arguments unchanged:
    the result is what the regrouping after the pipeline leaves, the weights are an array of the pipeline that no point
    writes, and the tokens and the bias are touched by nothing after their regrouping. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Gating.gate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (Cert.Gating.HostEnds.result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end KernelRun

/-- On the extended reals both programs, run from memories that agree on the arguments, end with the gate of those
    arguments as their result: the kernel by its run above, the reference by its generated run, whose result term is the
    gate index by index. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.Gating.Ref.v14_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
